-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S32x64 : Shape := ⟨2, ![32, 64]⟩
abbrev S32x8 : Shape := ⟨2, ![32, 8]⟩
abbrev S32 : Shape := ⟨1, ![32]⟩
abbrev S8x8 : Shape := ⟨2, ![8, 8]⟩
abbrev S8 : Shape := ⟨1, ![8]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S32x64 : S_.BroadcastsInDim S32x64 (![] : Fin 0 → Fin S32x64.rank)
  reducesTo_S32x64_S_d0_1 : S32x64.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg14 : FVec F S8 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg11 : FVec F S32 .f32) (main_arg12 : FVec F S32 .f32) (main_arg13 : FVec F S8x8 .f32) (main_arg14 : FVec F S8 .f32) (main_v48 : IVec S_ 1) (main_v49 : FVec F S32x8 .f32) (main_v50 : FVec F S32x8 .f32) : IVec S_ 1 :=
  let main_v51 : IVec S32x8 1 := cmpf .olt main_v49 main_v50
  let main_c_19 : IVec S_ 1 := constantI S_ 1 1#1
  let main_v52 : IVec S_ 1 := (fun x v => Host.reduce IntOp.andi x v reducesTo_S32x8_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S8x8 .f32 := Host.absf main_arg13
  let main_cst_24 : FVec F S_ .f32 := constant S_ .f32 0x7F800000#32
  let main_v65 : FVec F S8x8 .f32 := broadcastInDim S8x8 ![] bcast_S_S8x8 main_cst_24
  let main_v66 : IVec S8x8 1 := cmpf .olt main_v64 main_v65
  let main_c_25 : IVec S_ 1 := constantI S_ 1 1#1
  let main_v67 : IVec S_ 1 := (fun x v => Host.reduce IntOp.andi x v reducesTo_S8x8_S_d0_1 h_S_) main_v66 main_c_25
  fn_part4 (F := F) main_arg14 main_v63 main_v67

def fn_part2 {F : FTy → Type} [FloatOps F] (main_arg7 : FVec F S32 .f32) (main_arg8 : FVec F S32 .f32) (main_arg9 : FVec F S32x8 .f32) (main_arg10 : FVec F S32x8 .f32) (main_arg11 : FVec F S32 .f32) (main_arg12 : FVec F S32 .f32) (main_arg13 : FVec F S8x8 .f32) (main_arg14 : FVec F S8 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x8 .f32 := Host.absf main_arg9
  let main_cst_16 : FVec F S_ .f32 := constant S_ .f32 0x7F800000#32
  let main_v45 : FVec F S32x8 .f32 := broadcastInDim S32x8 ![] bcast_S_S32x8 main_cst_16
  let main_v46 : IVec S32x8 1 := cmpf .olt main_v44 main_v45
  let main_c_17 : IVec S_ 1 := constantI S_ 1 1#1
  let main_v47 : IVec S_ 1 := (fun x v => Host.reduce IntOp.andi x v reducesTo_S32x8_S_d0_1 h_S_) main_v46 main_c_17
  let main_v48 : IVec S_ 1 := andi main_v43 main_v47
  let main_v49 : FVec F S32x8 .f32 := Host.absf main_arg10
  let main_cst_18 : FVec F S_ .f32 := constant S_ .f32 0x7F800000#32
  let main_v50 : FVec F S32x8 .f32 := broadcastInDim S32x8 ![] bcast_S_S32x8 main_cst_18
  fn_part3 (F := F) main_arg11 main_arg12 main_arg13 main_arg14 main_v48 main_v49 main_v50

def fn_part1 {F : FTy → Type} [FloatOps F] (main_arg4 : FVec F S32 .f32) (main_arg5 : FVec F S32x8 .f32) (main_arg6 : FVec F S32x8 .f32) (main_arg7 : FVec F S32 .f32) (main_arg8 : FVec F S32 .f32) (main_arg9 : FVec F S32x8 .f32) (main_arg10 : FVec F S32x8 .f32) (main_arg11 : FVec F S32 .f32) (main_arg12 : FVec F S32 .f32) (main_arg13 : FVec F S8x8 .f32) (main_arg14 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x8 .f32 := Host.absf main_arg5
  let main_cst_8 : FVec F S_ .f32 := constant S_ .f32 0x7F800000#32
  let main_v25 : FVec F S32x8 .f32 := broadcastInDim S32x8 ![] bcast_S_S32x8 main_cst_8
  let main_v26 : IVec S32x8 1 := cmpf .olt main_v24 main_v25
  let main_c_9 : IVec S_ 1 := constantI S_ 1 1#1
  let main_v27 : IVec S_ 1 := (fun x v => Host.reduce IntOp.andi x v reducesTo_S32x8_S_d0_1 h_S_) main_v26 main_c_9
  let main_v28 : IVec S_ 1 := andi main_v23 main_v27
  let main_v29 : FVec F S32x8 .f32 := Host.absf main_arg6
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64 .f32) (main_arg1 : FVec F S32x64 .f32) (main_arg2 : FVec F S32x8 .f32) (main_arg3 : FVec F S32 .f32) (main_arg4 : FVec F S32 .f32) (main_arg5 : FVec F S32x8 .f32) (main_arg6 : FVec F S32x8 .f32) (main_arg7 : FVec F S32 .f32) (main_arg8 : FVec F S32 .f32) (main_arg9 : FVec F S32x8 .f32) (main_arg10 : FVec F S32x8 .f32) (main_arg11 : FVec F S32 .f32) (main_arg12 : FVec F S32 .f32) (main_arg13 : FVec F S8x8 .f32) (main_arg14 : FVec F S8 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x8 .f32 := Host.absf main_arg2
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64 : Shape := ⟨1, ![64]⟩
abbrev S32x64 : Shape := ⟨2, ![32, 64]⟩
abbrev S32x8 : Shape := ⟨2, ![32, 8]⟩
abbrev S32 : Shape := ⟨1, ![32]⟩
abbrev S8x8 : Shape := ⟨2, ![8, 8]⟩
abbrev S8 : Shape := ⟨1, ![8]⟩
abbrev S1x64 : Shape := ⟨2, ![1, 64]⟩
abbrev S1x32 : Shape := ⟨2, ![1, 32]⟩
abbrev S1x8 : Shape := ⟨2, ![1, 8]⟩
abbrev S64x32 : Shape := ⟨2, ![64, 32]⟩
abbrev S8x32 : Shape := ⟨2, ![8, 32]⟩

abbrev nBuf : Space → Nat
  | .hbm => 24
  | .vmem => 16
  | .smem => 0
  | _ => 0

abbrev bufTy : (tb : Table) → Fin (tcTables nBuf tb) → BufTy
  | .hbm, ⟨0, _⟩ => ⟨S64, .f32⟩
  | .hbm, ⟨1, _⟩ => ⟨S32x64, .f32⟩
  | .hbm, ⟨2, _⟩ => ⟨S32x8, .f32⟩
  | .hbm, ⟨3, _⟩ => ⟨S32, .f32⟩
  | .hbm, ⟨4, _⟩ => ⟨S32, .f32⟩
  | .hbm, ⟨5, _⟩ => ⟨S32x8, .f32⟩
  | .hbm, ⟨6, _⟩ => ⟨S32x8, .f32⟩
  | .hbm, ⟨7, _⟩ => ⟨S32, .f32⟩
  | .hbm, ⟨8, _⟩ => ⟨S32, .f32⟩
  | .hbm, ⟨9, _⟩ => ⟨S32x8, .f32⟩
  | .hbm, ⟨10, _⟩ => ⟨S32x8, .f32⟩
  | .hbm, ⟨11, _⟩ => ⟨S32, .f32⟩
  | .hbm, ⟨12, _⟩ => ⟨S32, .f32⟩
  | .hbm, ⟨13, _⟩ => ⟨S8x8, .f32⟩
  | .hbm, ⟨14, _⟩ => ⟨S8, .f32⟩
  | .hbm, ⟨15, _⟩ => ⟨S1x64, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x8, .f32⟩
  | .hbm, ⟨23, _⟩ => ⟨S1x8, .f32⟩
  | .local _ .vmem, ⟨0, _⟩ => ⟨S1x64, .f32⟩
  | .local _ .vmem, ⟨1, _⟩ => ⟨S32x64, .f32⟩
  | .local _ .vmem, ⟨2, _⟩ => ⟨S32x8, .f32⟩
  | .local _ .vmem, ⟨3, _⟩ => ⟨S1x32, .f32⟩
  | .local _ .vmem, ⟨4, _⟩ => ⟨S1x32, .f32⟩
  | .local _ .vmem, ⟨5, _⟩ => ⟨S32x8, .f32⟩
  | .local _ .vmem, ⟨6, _⟩ => ⟨S32x8, .f32⟩
  | .local _ .vmem, ⟨7, _⟩ => ⟨S1x32, .f32⟩
  | .local _ .vmem, ⟨8, _⟩ => ⟨S1x32, .f32⟩
  | .local _ .vmem, ⟨9, _⟩ => ⟨S32x8, .f32⟩
  | .local _ .vmem, ⟨10, _⟩ => ⟨S32x8, .f32⟩
  | .local _ .vmem, ⟨11, _⟩ => ⟨S1x32, .f32⟩
  | .local _ .vmem, ⟨12, _⟩ => ⟨S1x32, .f32⟩
  | .local _ .vmem, ⟨13, _⟩ => ⟨S8x8, .f32⟩
  | .local _ .vmem, ⟨14, _⟩ => ⟨S1x8, .f32⟩
  | .local _ .vmem, ⟨15, _⟩ => ⟨S1x8, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  shapeCasts_S64_S1x64 : S64.ShapeCasts S1x64
  shapeCasts_S32_S1x32 : S32.ShapeCasts S1x32
  shapeCasts_S8_S1x8 : S8.ShapeCasts S1x8
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32x64_S32x64_0_0 : ∀ a, (![0, 0] : Fin 2 → Nat) a + S32x64.size a ≤ S32x64.size a
  h_S32x64 : 0 < S32x64.numel
  inb_S32x8_S32x8_0_0 : ∀ a, (![0, 0] : Fin 2 → Nat) a + S32x8.size a ≤ S32x8.size a
  h_S32x8 : 0 < S32x8.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S32x64_p1_0_S64x32 : S32x64.Transposes [1, 0] S64x32
  transposes_S32x8_p1_0_S8x32 : S32x8.Transposes [1, 0] S8x32
  slices_S1x32_o0_0_S1x8 : S1x32.Slices ![0, 0] S1x8
  slices_S1x32_o0_8_S1x8 : S1x32.Slices ![0, 8] S1x8
  slices_S1x32_o0_16_S1x8 : S1x32.Slices ![0, 16] S1x8
  slices_S1x32_o0_24_S1x8 : S1x32.Slices ![0, 24] S1x8
  inb_S8x8_S8x8_0_0 : ∀ a, (![0, 0] : Fin 2 → Nat) a + S8x8.size a ≤ S8x8.size a
  h_S8x8 : 0 < S8x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  transposes_S8x8_p1_0_S8x8 : S8x8.Transposes [1, 0] S8x8
  dot_S1x64_S64x32_S1x32_1_0_0_1_n_n_wf : DotDims.WF S1x64 S64x32 S1x32 [1] [0] [0] [1] [] []
  dot_S1x8_S8x32_S1x32_1_0_0_1_n_n_wf : DotDims.WF S1x8 S8x32 S1x32 [1] [0] [0] [1] [] []
  dot_S1x8_S8x8_S1x8_1_0_0_1_n_n_wf : DotDims.WF S1x8 S8x8 S1x8 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x8.size a ≤ S32x8.size a
  hwx0_2 : ∀ i : grid0.Coords, EltTy.bits .f32 = 32 ∨ (Rect.block (s := S32x8) S32x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x8.size a ≤ S32x8.size a
  hwx0_5 : ∀ i : grid0.Coords, EltTy.bits .f32 = 32 ∨ (Rect.block (s := S32x8) S32x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x8.size a ≤ S32x8.size a
  hwx0_6 : ∀ i : grid0.Coords, EltTy.bits .f32 = 32 ∨ (Rect.block (s := S32x8) S32x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x8.size a ≤ S32x8.size a
  hwx0_9 : ∀ i : grid0.Coords, EltTy.bits .f32 = 32 ∨ (Rect.block (s := S32x8) S32x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x8.size a ≤ S32x8.size a
  hwx0_10 : ∀ i : grid0.Coords, EltTy.bits .f32 = 32 ∨ (Rect.block (s := S32x8) S32x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x8.size a ≤ S8x8.size a
  hwx0_13 : ∀ i : grid0.Coords, EltTy.bits .f32 = 32 ∨ (Rect.block (s := S8x8) S8x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x8.size a ≤ S1x8.size a
  hwx0_14 : ∀ i : grid0.Coords, EltTy.bits .f32 = 32 ∨ (Rect.block (s := S1x8) S1x8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x8.size a ≤ S1x8.size a
  hwx0_15 : ∀ i : grid0.Coords, EltTy.bits .f32 = 32 ∨ (Rect.block (s := S1x8) S1x8.size (cc0_transform_15 i) (hinb0_15 i)).WholeWords (EltTy.packing .f32)

variable [Facts₀]

def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S1x8_S8x8_S1x8_1_0_0_1_n_n : DotDims S1x8 S8x8 S1x8 where
  lhsContracting := [1]
  rhsContracting := [0]
  lhsNonContracting := [0]
  rhsNonContracting := [1]
  lhsBatch := []
  rhsBatch := []
  wf := dot_S1x8_S8x8_S1x8_1_0_0_1_n_n_wf

abbrev win0_0 : Pipeline.Window sig grid0 :=
  Pipeline.Window.ofSpec (Memref.whole main_v0) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x8.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S64 : Shape := ⟨1, ![64]⟩
abbrev S32x64 : Shape := ⟨2, ![32, 64]⟩
abbrev S32x8 : Shape := ⟨2, ![32, 8]⟩
abbrev S32 : Shape := ⟨1, ![32]⟩
abbrev S8x8 : Shape := ⟨2, ![8, 8]⟩
abbrev S8 : Shape := ⟨1, ![8]⟩
abbrev S1x64 : Shape := ⟨2, ![1, 64]⟩
abbrev S_ : Shape := ⟨0, ![]⟩
abbrev S1x8 : Shape := ⟨2, ![1, 8]⟩
abbrev S64x32 : Shape := ⟨2, ![64, 32]⟩
abbrev S1x32 : Shape := ⟨2, ![1, 32]⟩
abbrev S8x32 : Shape := ⟨2, ![8, 32]⟩

abbrev nBuf : Space → Nat
  | .hbm => 161
  | .vmem => 0
  | .smem => 0
  | _ => 0

abbrev hbmTy0_0 (i : Nat) : BufTy := match i % 128 with
  | 0 => ⟨S64, .f32⟩
  | 1 => ⟨S32x64, .f32⟩
  | 2 => ⟨S32x8, .f32⟩
  | 3 => ⟨S32, .f32⟩
  | 4 => ⟨S32, .f32⟩
  | 5 => ⟨S32x8, .f32⟩
  | 6 => ⟨S32x8, .f32⟩
  | 7 => ⟨S32, .f32⟩
  | 8 => ⟨S32, .f32⟩
  | 9 => ⟨S32x8, .f32⟩
  | 10 => ⟨S32x8, .f32⟩
  | 11 => ⟨S32, .f32⟩
  | 12 => ⟨S32, .f32⟩
  | 13 => ⟨S8x8, .f32⟩
  | 14 => ⟨S8, .f32⟩
  | 15 => ⟨S1x64, .f32⟩
  | 16 => ⟨S_, .f32⟩
  | 17 => ⟨S1x8, .f32⟩
  | 18 => ⟨S_, .f32⟩
  | 19 => ⟨S1x8, .f32⟩
  | 20 => ⟨S64x32, .f32⟩
  | 21 => ⟨S1x32, .f32⟩
  | 22 => ⟨S1x32, .f32⟩
  | 23 => ⟨S1x32, .f32⟩
  | 24 => ⟨S8x32, .f32⟩
  | 25 => ⟨S1x32, .f32⟩
  | 26 => ⟨S1x32, .f32⟩
  | 27 => ⟨S1x32, .f32⟩
  | 28 => ⟨S1x32, .f32⟩
  | 29 => ⟨S1x8, .f32⟩
  | 30 => ⟨S1x8, .f32⟩
  | 31 => ⟨S1x8, .f32⟩
  | 32 => ⟨S1x8, .f32⟩
  | 33 => ⟨S1x8, .f32⟩
  | 34 => ⟨S1x8, .f32⟩
  | 35 => ⟨S_, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S1x8, .f32⟩
  | 43 => ⟨S_, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S1x8, .f32⟩
  | 50 => ⟨S1x8, .f32⟩
  | 51 => ⟨S1x8, .f32⟩
  | 52 => ⟨S_, .f32⟩
  | 53 => ⟨S1x8, .f32⟩
  | 54 => ⟨S1x8, .f32⟩
  | 55 => ⟨S_, .f32⟩
  | 56 => ⟨S1x8, .f32⟩
  | 57 => ⟨S1x8, .f32⟩
  | 58 => ⟨S1x8, .f32⟩
  | 59 => ⟨S1x8, .f32⟩
  | 60 => ⟨S1x8, .f32⟩
  | 61 => ⟨S1x8, .f32⟩
  | 62 => ⟨S1x8, .f32⟩
  | 63 => ⟨S8x32, .f32⟩
  | 64 => ⟨S1x32, .f32⟩
  | 65 => ⟨S1x32, .f32⟩
  | 66 => ⟨S1x32, .f32⟩
  | 67 => ⟨S8x32, .f32⟩
  | 68 => ⟨S1x32, .f32⟩
  | 69 => ⟨S1x32, .f32⟩
  | 70 => ⟨S1x32, .f32⟩
  | 71 => ⟨S1x32, .f32⟩
  | 72 => ⟨S1x8, .f32⟩
  | 73 => ⟨S1x8, .f32⟩
  | 74 => ⟨S1x8, .f32⟩
  | 75 => ⟨S1x8, .f32⟩
  | 76 => ⟨S1x8, .f32⟩
  | 77 => ⟨S1x8, .f32⟩
  | 78 => ⟨S_, .f32⟩
  | 79 => ⟨S1x8, .f32⟩
  | 80 => ⟨S1x8, .f32⟩
  | 81 => ⟨S_, .f32⟩
  | 82 => ⟨S1x8, .f32⟩
  | 83 => ⟨S1x8, .f32⟩
  | 84 => ⟨S1x8, .f32⟩
  | 85 => ⟨S1x8, .f32⟩
  | 86 => ⟨S_, .f32⟩
  | 87 => ⟨S1x8, .f32⟩
  | 88 => ⟨S1x8, .f32⟩
  | 89 => ⟨S_, .f32⟩
  | 90 => ⟨S1x8, .f32⟩
  | 91 => ⟨S1x8, .f32⟩
  | 92 => ⟨S1x8, .f32⟩
  | 93 => ⟨S1x8, .f32⟩
  | 94 => ⟨S1x8, .f32⟩
  | 95 => ⟨S_, .f32⟩
  | 96 => ⟨S1x8, .f32⟩
  | 97 => ⟨S1x8, .f32⟩
  | 98 => ⟨S_, .f32⟩
  | 99 => ⟨S1x8, .f32⟩
  | 100 => ⟨S1x8, .f32⟩
  | 101 => ⟨S1x8, .f32⟩
  | 102 => ⟨S1x8, .f32⟩
  | 103 => ⟨S1x8, .f32⟩
  | 104 => ⟨S1x8, .f32⟩
  | 105 => ⟨S1x8, .f32⟩
  | 106 => ⟨S8x32, .f32⟩
  | 107 => ⟨S1x32, .f32⟩
  | 108 => ⟨S1x32, .f32⟩
  | 109 => ⟨S1x32, .f32⟩
  | 110 => ⟨S8x32, .f32⟩
  | 111 => ⟨S1x32, .f32⟩
  | 112 => ⟨S1x32, .f32⟩
  | 113 => ⟨S1x32, .f32⟩
  | 114 => ⟨S1x32, .f32⟩
  | 115 => ⟨S1x8, .f32⟩
  | 116 => ⟨S1x8, .f32⟩
  | 117 => ⟨S1x8, .f32⟩
  | 118 => ⟨S1x8, .f32⟩
  | 119 => ⟨S1x8, .f32⟩
  | 120 => ⟨S1x8, .f32⟩
  | 121 => ⟨S_, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S1x8, .f32⟩
  | _ => ⟨S64, .f32⟩

abbrev hbmTy0_1 (i : Nat) : BufTy := match i % 128 with
  | 0 => ⟨S1x8, .f32⟩
  | 1 => ⟨S_, .f32⟩
  | 2 => ⟨S1x8, .f32⟩
  | 3 => ⟨S1x8, .f32⟩
  | 4 => ⟨S_, .f32⟩
  | 5 => ⟨S1x8, .f32⟩
  | 6 => ⟨S1x8, .f32⟩
  | 7 => ⟨S1x8, .f32⟩
  | 8 => ⟨S1x8, .f32⟩
  | 9 => ⟨S1x8, .f32⟩
  | 10 => ⟨S_, .f32⟩
  | 11 => ⟨S1x8, .f32⟩
  | 12 => ⟨S1x8, .f32⟩
  | 13 => ⟨S_, .f32⟩
  | 14 => ⟨S1x8, .f32⟩
  | 15 => ⟨S1x8, .f32⟩
  | 16 => ⟨S1x8, .f32⟩
  | 17 => ⟨S1x8, .f32⟩
  | 18 => ⟨S1x8, .f32⟩
  | 19 => ⟨S1x8, .f32⟩
  | 20 => ⟨S1x8, .f32⟩
  | 21 => ⟨S8x8, .f32⟩
  | 22 => ⟨S1x8, .f32⟩
  | 23 => ⟨S1x8, .f32⟩
  | 24 => ⟨S1x8, .f32⟩
  | 25 => ⟨S1x8, .f32⟩
  | 26 => ⟨S1x8, .f32⟩
  | 27 => ⟨S_, .f32⟩
  | 28 => ⟨S1x8, .f32⟩
  | 29 => ⟨S1x8, .f32⟩
  | 30 => ⟨S_, .f32⟩
  | 31 => ⟨S1x8, .f32⟩
  | 32 => ⟨S1x8, .f32⟩
  | _ => ⟨S64, .f32⟩

abbrev hbmTy (i : Nat) : BufTy := match i / 128 with
  | 0 => hbmTy0_0 i
  | 1 => hbmTy0_1 i
  | _ => ⟨S64, .f32⟩

abbrev bufTy : (tb : Table) → Fin (tcTables nBuf tb) → BufTy
  | .hbm, ⟨i, _⟩ => hbmTy i
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_v93 : Ref sig .tc := ⟨.hbm, 123, rfl⟩
abbrev main_cst_14 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_15 : Ref sig .tc := ⟨.hbm, 129, rfl⟩
abbrev main_v98 : Ref sig .tc := ⟨.hbm, 130, rfl⟩
abbrev main_v99 : Ref sig .tc := ⟨.hbm, 131, rfl⟩
abbrev main_cst_16 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_17 : Ref sig .tc := ⟨.hbm, 138, rfl⟩
abbrev main_v105 : Ref sig .tc := ⟨.hbm, 139, rfl⟩
abbrev main_v106 : Ref sig .tc := ⟨.hbm, 140, rfl⟩
abbrev main_cst_18 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_19 : Ref sig .tc := ⟨.hbm, 155, rfl⟩
abbrev main_v120 : Ref sig .tc := ⟨.hbm, 156, rfl⟩
abbrev main_v121 : Ref sig .tc := ⟨.hbm, 157, rfl⟩
abbrev main_cst_20 : Ref sig .tc := ⟨.hbm, 158, rfl⟩
abbrev main_v122 : Ref sig .tc := ⟨.hbm, 159, rfl⟩
abbrev main_v123 : Ref sig .tc := ⟨.hbm, 160, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S_S1x8 : S_.BroadcastsInDim S1x8 (![] : Fin 0 → Fin S1x8.rank)
  transposes_S32x64_S64x32_1_0 : S32x64.Transposes [1, 0] S64x32
  bcast_S32_S1x32_1 : S32.BroadcastsInDim S1x32 (![1] : Fin 1 → Fin S1x32.rank)
  transposes_S32x8_S8x32_1_0 : S32x8.Transposes [1, 0] S8x32
  slices_S1x32_S1x8_0_0 : S1x32.Slices ![0, 0] S1x8
  slices_S1x32_S1x8_0_8 : S1x32.Slices ![0, 8] S1x8
  slices_S1x32_S1x8_0_16 : S1x32.Slices ![0, 16] S1x8
  slices_S1x32_S1x8_0_24 : S1x32.Slices ![0, 24] S1x8
  transposes_S8x8_S8x8_1_0 : S8x8.Transposes [1, 0] S8x8
  bcast_S8_S1x8_1 : S8.BroadcastsInDim S1x8 (![1] : Fin 1 → Fin S1x8.rank)
  dot_S1x64_S64x32_S1x32_1_0_0_1_n_n_wf : DotDims.WF S1x64 S64x32 S1x32 [1] [0] [0] [1] [] []
  dot_S1x8_S8x32_S1x32_1_0_0_1_n_n_wf : DotDims.WF S1x8 S8x32 S1x32 [1] [0] [0] [1] [] []
  dot_S1x8_S8x8_S1x8_1_0_0_1_n_n_wf : DotDims.WF S1x8 S8x8 S1x8 [1] [0] [0] [1] [] []

variable [Facts₀]

def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S1x8_S8x8_S1x8_1_0_0_1_n_n : DotDims S1x8 S8x8 S1x8 where
  lhsContracting := [1]
  rhsContracting := [0]
  lhsNonContracting := [0]
  rhsNonContracting := [1]
  lhsBatch := []
  rhsBatch := []
  wf := dot_S1x8_S8x8_S1x8_1_0_0_1_n_n_wf

class Facts : Prop extends Facts₀ where

variable [Facts]
-- ==== Proof.Spec.lean ====
/-
  The function both programs compute: one step of a three-layer LSTM from the zero state, followed by
  a linear layer and a logistic, on the extended reals.

  Notation.  A row is an array `[1, n]`.  For a row `x : [1, k]` and a weight matrix `W : [n, k]`,
  `x · Wᵀ : [1, n]` has entries `∑ₖ x(0,k) · W(j,k)`.  The previous hidden state and the previous cell
  state of every layer are the zero row `0 : [1, 8]`.

  One layer, from its input row `x`, weights `W_ih : [32, k]`, `W_hh : [32, 8]` and bias rows
  `b_ih, b_hh : [1, 32]`:

      z = ((x · W_ihᵀ + b_ih) + 0 · W_hhᵀ) + b_hh                      the 32 pre-activations,
      i, f, g, o = z[0:8], z[8:16], z[16:24], z[24:32]                  the four gates' slices,
      c = σ(f) · 0 + σ(i) · tanh g                                      the new cell state,
      h = σ(o) · tanh c                                                 the new hidden state,

  with `σ` the logistic function.  Three layers are chained (`k = 64`, then `8`, `8`), and the
  output is `σ (h · W_outᵀ + b_out)` for `W_out : [8, 8]`, `b_out : [1, 8]`.

  The sums are written in the order above, the order in which both programs add: on the extended
  reals addition and multiplication stay commutative and associative, but nothing here needs even
  that — the two programs are compared term by term.  The products with the zero state are kept as
  products: `0 · w` is `0` only for finite `w`, and no finiteness is assumed.
-/
import Idealize.ShloMosaic.PureOps.Ideal
import Idealize.ShloMosaic.PureOps.Dims

noncomputable section

namespace Cert.Lstm

open Idealize.ShloMosaic

/-- A row of `n` entries, as the array shape `[1, n]`. -/
abbrev Row (n : ℕ) : Shape := ⟨2, ![1, n]⟩

/-- A matrix of `a` rows and `b` columns, as the array shape `[a, b]`. -/
abbrev Mat (a b : ℕ) : Shape := ⟨2, ![a, b]⟩

/-- The zero row of width 8: every layer's previous hidden state, and its previous cell state. -/
def zero8 : FVec Ideal (Row 8) .f32 := broadcast (Row 8) (Scalar.ofBits (F := Ideal) .f32 0x00000000#32)

/-- `x · Wᵀ` for a row `x : [1, k]` and a matrix `W : [n, k]`: the matrix product of `x` with the
    transpose of `W`, added to the zero row. -/
def mulT {k n : ℕ} (x : FVec Ideal (Row k) .f32) (w : FVec Ideal (Mat n k) .f32)
    (ht : (Mat n k).Transposes [1, 0] (Mat k n)) : FVec Ideal (Row n) .f32 :=
  matmul (DotDims.plain 1 k n) (some .fp32) x (transpose (Mat k n) [1, 0] w ht)
    (constant (F := Ideal) (Row n) .f32 0x00000000#32)

/-- A layer's 32 pre-activations `((x · W_ihᵀ + b_ih) + 0 · W_hhᵀ) + b_hh`. -/
def gates {k : ℕ} (x : FVec Ideal (Row k) .f32) (wih : FVec Ideal (Mat 32 k) .f32)
    (whh : FVec Ideal (Mat 32 8) .f32) (bih bhh : FVec Ideal (Row 32) .f32)
    (ht : (Mat 32 k).Transposes [1, 0] (Mat k 32)) : FVec Ideal (Row 32) .f32 :=
  addf (addf (addf (mulT x wih ht) bih) (mulT zero8 whh (by decide))) bhh

/-- A layer's new hidden state from its pre-activations `z`: with `i, f, g, o` the four slices of
    eight, `σ(o) · tanh (σ(f) · 0 + σ(i) · tanh g)`. -/
def hidden (z : FVec Ideal (Row 32) .f32) : FVec Ideal (Row 8) .f32 :=
  mulf (logistic (extractStridedSlice (Row 8) ![0, 24] z))
    (tanh (addf (mulf (logistic (extractStridedSlice (Row 8) ![0, 8] z)) zero8)
      (mulf (logistic (extractStridedSlice (Row 8) ![0, 0] z)) (tanh (extractStridedSlice (Row 8) ![0, 16] z)))))

/-- The output layer `σ (h · W_outᵀ + b_out)`. -/
def head (h : FVec Ideal (Row 8) .f32) (wout : FVec Ideal (Mat 8 8) .f32) (bout : FVec Ideal (Row 8) .f32) :
    FVec Ideal (Row 8) .f32 :=
  logistic (addf (mulT h wout (by decide)) bout)

/-- The whole function: three layers from the observation row, then the output layer. -/
def policy (obs : FVec Ideal (Row 64) .f32)
    (wih0 : FVec Ideal (Mat 32 64) .f32) (whh0 : FVec Ideal (Mat 32 8) .f32) (bih0 bhh0 : FVec Ideal (Row 32) .f32)
    (wih1 whh1 : FVec Ideal (Mat 32 8) .f32) (bih1 bhh1 : FVec Ideal (Row 32) .f32)
    (wih2 whh2 : FVec Ideal (Mat 32 8) .f32) (bih2 bhh2 : FVec Ideal (Row 32) .f32)
    (wout : FVec Ideal (Mat 8 8) .f32) (bout : FVec Ideal (Row 8) .f32) : FVec Ideal (Row 8) .f32 :=
  head (hidden (gates (hidden (gates (hidden (gates obs wih0 whh0 bih0 bhh0 (by decide)))
    wih1 whh1 bih1 bhh1 (by decide))) wih2 whh2 bih2 bhh2 (by decide))) wout bout

end Cert.Lstm

end
-- ==== Proof.KernelValue.lean ====
/-
  The kernel's result array is the LSTM policy of `Spec.lean` of its argument arrays.

  The kernel is launched once (a grid of one point), and every operand's block at that point is the
  operand's whole array; the observation, the six gate biases and the output bias reach the kernel as
  rows `[1, n]`, reshaped from `[n]` by the host before the launch.  So:

    * the body's arithmetic — three layers and the output layer, each matrix product taken against the
      transposed weight matrix into the zero accumulator, the rows' identity casts dropped — is the
      policy of the blocks it loads (`body_eq`);
    * each block is its array as the launch finds it (`blk_w`: the block index is `0` on both axes and
      the block has the array's extents, so a block coordinate IS the array coordinate);
    * what the one point writes back is therefore the policy of those arrays, read through the output's
      block (`flushed_eq`), and that block covers the whole `[1, 8]` result (`cover`), so the result array
      ends holding the policy of the arrays at launch (`final`);
    * the eight reshaped arrays are the reshapes of the arguments (`row_…`), the other seven the
      arguments themselves (`policyOf_eq`).
-/
import proofs.«142258_j71133248356703_2_alg».proof.Proof.Gen.KernelIdeal.Value
import proofs.«142258_j71133248356703_2_alg».proof.Proof.Spec
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)
open Cert.Lstm

variable (m : (ℓ : Loc nD τ sig) → Buf (Elt Ideal) ℓ) (ρ : Dev nD → PrngReg)

/-! ## The body's arithmetic is the policy of the blocks it loads -/

/-- The first layer: the hidden state of the pre-activations of the observation row. -/
theorem layer0 (x0 : Vec Ideal S1x64 .f32) (x1 : Vec Ideal S32x64 .f32) (x2 : Vec Ideal S32x8 .f32)
    (x3 x4 : Vec Ideal S1x32 .f32) :
    k0_pay4 (F := Ideal) x0 x1 x2 x3 x4 = hidden (gates x0 x1 x2 x3 x4 (by decide)) := by
  unfold k0_pay4 k0_pay2 k0_pay3
  simp only [shapeCast_self]
  rfl

/-- The second and third layers, from the first layer's hidden state `h`. -/
theorem layers12 (h : FVec Ideal S1x8 .f32) (x5 x6 : Vec Ideal S32x8 .f32) (x7 x8 : Vec Ideal S1x32 .f32)
    (x9 x10 : Vec Ideal S32x8 .f32) (x11 x12 : Vec Ideal S1x32 .f32) :
    k0_pay8 (F := Ideal) k0_pay2 k0_pay3 h x6 (k0_pay5 x7) (k0_pay6 x8) (k0_pay7 x5) x9 x10 x11 x12
      = hidden (gates (hidden (gates h x5 x6 x7 x8 (by decide))) x9 x10 x11 x12 (by decide)) := by
  unfold k0_pay8 k0_pay2 k0_pay3 k0_pay5 k0_pay6 k0_pay7
  simp only [shapeCast_self]
  rfl

/-- The output layer, from the third layer's hidden state `h`. -/
theorem out_layer (h : FVec Ideal S1x8 .f32) (x13 : Vec Ideal S8x8 .f32) (x14 : Vec Ideal S1x8 .f32) :
    k0_pay1 (F := Ideal) h x13 x14 = head h x13 x14 := by
  unfold k0_pay1
  simp only [shapeCast_self]
  rfl

/-- The value the body stores, as the policy of its fifteen loaded blocks. -/
theorem body_eq (x0 : Vec Ideal S1x64 .f32) (x1 : Vec Ideal S32x64 .f32) (x2 : Vec Ideal S32x8 .f32)
    (x3 x4 : Vec Ideal S1x32 .f32) (x5 x6 : Vec Ideal S32x8 .f32) (x7 x8 : Vec Ideal S1x32 .f32)
    (x9 x10 : Vec Ideal S32x8 .f32) (x11 x12 : Vec Ideal S1x32 .f32) (x13 : Vec Ideal S8x8 .f32)
    (x14 : Vec Ideal S1x8 .f32) :
    k0_pay1 (F := Ideal) (k0_pay8 k0_pay2 k0_pay3 (k0_pay4 x0 x1 x2 x3 x4) x6 (k0_pay5 x7) (k0_pay6 x8) (k0_pay7 x5)
        x9 x10 x11 x12) x13 x14
      = policy x0 x1 x2 x3 x4 x5 x6 x7 x8 x9 x10 x11 x12 x13 x14 := by
  rw [layer0, layers12, out_layer]
  rfl

/-! ## Each window's block at the one grid point is its whole array -/

theorem hz : (![0, 0] : Fin 2 → Nat) = fun _ => 0 := funext fun a => by fin_cases a <;> rfl

/-- The printed index maps, decided over the grid: every window's block index is `0` on both axes. -/
theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)

/-- A block coordinate is (block index) × (block extent) + 1 × (coordinate inside the block); at block index `0`
    that is the coordinate itself, so the block reads the array. -/
theorem blk_0 (c : Dev nD) (t : Fin cfg0.N) : (iblk m c 0 t : Vec Ideal S1x64 .f32) = V m c main_v0 := by
  funext y
  show V m c main_v0 (((cfg0.win 0).blk t).view.emb y) = V m c main_v0 y
  refine congrArg _ (funext fun a => Fin.ext ?_)
  obtain ⟨e0, e1⟩ := idx_0 t
  match a with
  | ⟨0, _⟩ => show win0_0.index t (0 : Fin 2) * 1 + 1 * (y 0).val = (y 0).val; omega
  | ⟨1, _⟩ => show win0_0.index t (1 : Fin 2) * 64 + 1 * (y 1).val = (y 1).val; omega
theorem blk_1 (c : Dev nD) (t : Fin cfg0.N) : (iblk m c 1 t : Vec Ideal S32x64 .f32) = V m c main_arg1 := by
  funext y
  show V m c main_arg1 (((cfg0.win 1).blk t).view.emb y) = V m c main_arg1 y
  refine congrArg _ (funext fun a => Fin.ext ?_)
  obtain ⟨e0, e1⟩ := idx_1 t
  match a with
  | ⟨0, _⟩ => show win0_1.index t (0 : Fin 2) * 32 + 1 * (y 0).val = (y 0).val; omega
  | ⟨1, _⟩ => show win0_1.index t (1 : Fin 2) * 64 + 1 * (y 1).val = (y 1).val; omega
theorem blk_2 (c : Dev nD) (t : Fin cfg0.N) : (iblk m c 2 t : Vec Ideal S32x8 .f32) = V m c main_arg2 := by
  funext y
  show V m c main_arg2 (((cfg0.win 2).blk t).view.emb y) = V m c main_arg2 y
  refine congrArg _ (funext fun a => Fin.ext ?_)
  obtain ⟨e0, e1⟩ := idx_2 t
  match a with
  | ⟨0, _⟩ => show win0_2.index t (0 : Fin 2) * 32 + 1 * (y 0).val = (y 0).val; omega
  | ⟨1, _⟩ => show win0_2.index t (1 : Fin 2) * 8 + 1 * (y 1).val = (y 1).val; omega
theorem blk_3 (c : Dev nD) (t : Fin cfg0.N) : (iblk m c 3 t : Vec Ideal S1x32 .f32) = V m c main_v1 := by
  funext y
  show V m c main_v1 (((cfg0.win 3).blk t).view.emb y) = V m c main_v1 y
  refine congrArg _ (funext fun a => Fin.ext ?_)
  obtain ⟨e0, e1⟩ := idx_3 t
  match a with
  | ⟨0, _⟩ => show win0_3.index t (0 : Fin 2) * 1 + 1 * (y 0).val = (y 0).val; omega
  | ⟨1, _⟩ => show win0_3.index t (1 : Fin 2) * 32 + 1 * (y 1).val = (y 1).val; omega
theorem blk_4 (c : Dev nD) (t : Fin cfg0.N) : (iblk m c 4 t : Vec Ideal S1x32 .f32) = V m c main_v2 := by
  funext y
  show V m c main_v2 (((cfg0.win 4).blk t).view.emb y) = V m c main_v2 y
  refine congrArg _ (funext fun a => Fin.ext ?_)
  obtain ⟨e0, e1⟩ := idx_4 t
  match a with
  | ⟨0, _⟩ => show win0_4.index t (0 : Fin 2) * 1 + 1 * (y 0).val = (y 0).val; omega
  | ⟨1, _⟩ => show win0_4.index t (1 : Fin 2) * 32 + 1 * (y 1).val = (y 1).val; omega
theorem blk_5 (c : Dev nD) (t : Fin cfg0.N) : (iblk m c 5 t : Vec Ideal S32x8 .f32) = V m c main_arg5 := by
  funext y
  show V m c main_arg5 (((cfg0.win 5).blk t).view.emb y) = V m c main_arg5 y
  refine congrArg _ (funext fun a => Fin.ext ?_)
  obtain ⟨e0, e1⟩ := idx_5 t
  match a with
  | ⟨0, _⟩ => show win0_5.index t (0 : Fin 2) * 32 + 1 * (y 0).val = (y 0).val; omega
  | ⟨1, _⟩ => show win0_5.index t (1 : Fin 2) * 8 + 1 * (y 1).val = (y 1).val; omega
theorem blk_6 (c : Dev nD) (t : Fin cfg0.N) : (iblk m c 6 t : Vec Ideal S32x8 .f32) = V m c main_arg6 := by
  funext y
  show V m c main_arg6 (((cfg0.win 6).blk t).view.emb y) = V m c main_arg6 y
  refine congrArg _ (funext fun a => Fin.ext ?_)
  obtain ⟨e0, e1⟩ := idx_6 t
  match a with
  | ⟨0, _⟩ => show win0_6.index t (0 : Fin 2) * 32 + 1 * (y 0).val = (y 0).val; omega
  | ⟨1, _⟩ => show win0_6.index t (1 : Fin 2) * 8 + 1 * (y 1).val = (y 1).val; omega
theorem blk_7 (c : Dev nD) (t : Fin cfg0.N) : (iblk m c 7 t : Vec Ideal S1x32 .f32) = V m c main_v3 := by
  funext y
  show V m c main_v3 (((cfg0.win 7).blk t).view.emb y) = V m c main_v3 y
  refine congrArg _ (funext fun a => Fin.ext ?_)
  obtain ⟨e0, e1⟩ := idx_7 t
  match a with
  | ⟨0, _⟩ => show win0_7.index t (0 : Fin 2) * 1 + 1 * (y 0).val = (y 0).val; omega
  | ⟨1, _⟩ => show win0_7.index t (1 : Fin 2) * 32 + 1 * (y 1).val = (y 1).val; omega
theorem blk_8 (c : Dev nD) (t : Fin cfg0.N) : (iblk m c 8 t : Vec Ideal S1x32 .f32) = V m c main_v4 := by
  funext y
  show V m c main_v4 (((cfg0.win 8).blk t).view.emb y) = V m c main_v4 y
  refine congrArg _ (funext fun a => Fin.ext ?_)
  obtain ⟨e0, e1⟩ := idx_8 t
  match a with
  | ⟨0, _⟩ => show win0_8.index t (0 : Fin 2) * 1 + 1 * (y 0).val = (y 0).val; omega
  | ⟨1, _⟩ => show win0_8.index t (1 : Fin 2) * 32 + 1 * (y 1).val = (y 1).val; omega
theorem blk_9 (c : Dev nD) (t : Fin cfg0.N) : (iblk m c 9 t : Vec Ideal S32x8 .f32) = V m c main_arg9 := by
  funext y
  show V m c main_arg9 (((cfg0.win 9).blk t).view.emb y) = V m c main_arg9 y
  refine congrArg _ (funext fun a => Fin.ext ?_)
  obtain ⟨e0, e1⟩ := idx_9 t
  match a with
  | ⟨0, _⟩ => show win0_9.index t (0 : Fin 2) * 32 + 1 * (y 0).val = (y 0).val; omega
  | ⟨1, _⟩ => show win0_9.index t (1 : Fin 2) * 8 + 1 * (y 1).val = (y 1).val; omega
theorem blk_10 (c : Dev nD) (t : Fin cfg0.N) : (iblk m c 10 t : Vec Ideal S32x8 .f32) = V m c main_arg10 := by
  funext y
  show V m c main_arg10 (((cfg0.win 10).blk t).view.emb y) = V m c main_arg10 y
  refine congrArg _ (funext fun a => Fin.ext ?_)
  obtain ⟨e0, e1⟩ := idx_10 t
  match a with
  | ⟨0, _⟩ => show win0_10.index t (0 : Fin 2) * 32 + 1 * (y 0).val = (y 0).val; omega
  | ⟨1, _⟩ => show win0_10.index t (1 : Fin 2) * 8 + 1 * (y 1).val = (y 1).val; omega
theorem blk_11 (c : Dev nD) (t : Fin cfg0.N) : (iblk m c 11 t : Vec Ideal S1x32 .f32) = V m c main_v5 := by
  funext y
  show V m c main_v5 (((cfg0.win 11).blk t).view.emb y) = V m c main_v5 y
  refine congrArg _ (funext fun a => Fin.ext ?_)
  obtain ⟨e0, e1⟩ := idx_11 t
  match a with
  | ⟨0, _⟩ => show win0_11.index t (0 : Fin 2) * 1 + 1 * (y 0).val = (y 0).val; omega
  | ⟨1, _⟩ => show win0_11.index t (1 : Fin 2) * 32 + 1 * (y 1).val = (y 1).val; omega
theorem blk_12 (c : Dev nD) (t : Fin cfg0.N) : (iblk m c 12 t : Vec Ideal S1x32 .f32) = V m c main_v6 := by
  funext y
  show V m c main_v6 (((cfg0.win 12).blk t).view.emb y) = V m c main_v6 y
  refine congrArg _ (funext fun a => Fin.ext ?_)
  obtain ⟨e0, e1⟩ := idx_12 t
  match a with
  | ⟨0, _⟩ => show win0_12.index t (0 : Fin 2) * 1 + 1 * (y 0).val = (y 0).val; omega
  | ⟨1, _⟩ => show win0_12.index t (1 : Fin 2) * 32 + 1 * (y 1).val = (y 1).val; omega
theorem blk_13 (c : Dev nD) (t : Fin cfg0.N) : (iblk m c 13 t : Vec Ideal S8x8 .f32) = V m c main_arg13 := by
  funext y
  show V m c main_arg13 (((cfg0.win 13).blk t).view.emb y) = V m c main_arg13 y
  refine congrArg _ (funext fun a => Fin.ext ?_)
  obtain ⟨e0, e1⟩ := idx_13 t
  match a with
  | ⟨0, _⟩ => show win0_13.index t (0 : Fin 2) * 8 + 1 * (y 0).val = (y 0).val; omega
  | ⟨1, _⟩ => show win0_13.index t (1 : Fin 2) * 8 + 1 * (y 1).val = (y 1).val; omega
theorem blk_14 (c : Dev nD) (t : Fin cfg0.N) : (iblk m c 14 t : Vec Ideal S1x8 .f32) = V m c main_v7 := by
  funext y
  show V m c main_v7 (((cfg0.win 14).blk t).view.emb y) = V m c main_v7 y
  refine congrArg _ (funext fun a => Fin.ext ?_)
  obtain ⟨e0, e1⟩ := idx_14 t
  match a with
  | ⟨0, _⟩ => show win0_14.index t (0 : Fin 2) * 1 + 1 * (y 0).val = (y 0).val; omega
  | ⟨1, _⟩ => show win0_14.index t (1 : Fin 2) * 8 + 1 * (y 1).val = (y 1).val; omega

/-! ## The arrays the host reshaped before the launch -/

theorem row_obs (c : Dev nD) :
    (V m c main_v0 : Vec Ideal S1x64 .f32) = shapeCast S1x64 (m ((c : Thread nD τ).loc main_arg0)) shapeCasts_S64_S1x64 := by
  dsimp only [Gen.V, Gen.hostOps0]; after_results; rfl
theorem row_bih0 (c : Dev nD) :
    (V m c main_v1 : Vec Ideal S1x32 .f32) = shapeCast S1x32 (m ((c : Thread nD τ).loc main_arg3)) shapeCasts_S32_S1x32 := by
  dsimp only [Gen.V, Gen.hostOps0]; after_results; rfl
theorem row_bhh0 (c : Dev nD) :
    (V m c main_v2 : Vec Ideal S1x32 .f32) = shapeCast S1x32 (m ((c : Thread nD τ).loc main_arg4)) shapeCasts_S32_S1x32 := by
  dsimp only [Gen.V, Gen.hostOps0]; after_results; rfl
theorem row_bih1 (c : Dev nD) :
    (V m c main_v3 : Vec Ideal S1x32 .f32) = shapeCast S1x32 (m ((c : Thread nD τ).loc main_arg7)) shapeCasts_S32_S1x32 := by
  dsimp only [Gen.V, Gen.hostOps0]; after_results; rfl
theorem row_bhh1 (c : Dev nD) :
    (V m c main_v4 : Vec Ideal S1x32 .f32) = shapeCast S1x32 (m ((c : Thread nD τ).loc main_arg8)) shapeCasts_S32_S1x32 := by
  dsimp only [Gen.V, Gen.hostOps0]; after_results; rfl
theorem row_bih2 (c : Dev nD) :
    (V m c main_v5 : Vec Ideal S1x32 .f32) = shapeCast S1x32 (m ((c : Thread nD τ).loc main_arg11)) shapeCasts_S32_S1x32 := by
  dsimp only [Gen.V, Gen.hostOps0]; after_results; rfl
theorem row_bhh2 (c : Dev nD) :
    (V m c main_v6 : Vec Ideal S1x32 .f32) = shapeCast S1x32 (m ((c : Thread nD τ).loc main_arg12)) shapeCasts_S32_S1x32 := by
  dsimp only [Gen.V, Gen.hostOps0]; after_results; rfl
theorem row_bout (c : Dev nD) :
    (V m c main_v7 : Vec Ideal S1x8 .f32) = shapeCast S1x8 (m ((c : Thread nD τ).loc main_arg14)) shapeCasts_S8_S1x8 := by
  dsimp only [Gen.V, Gen.hostOps0]; after_results; rfl

/-! ## From the one block to the result array -/

/-- The policy of the fifteen operand arrays as the launch finds them. -/
def atLaunch (c : Dev nD) : S1x8.Idx → EReal :=
  policy (V m c main_v0) (V m c main_arg1) (V m c main_arg2) (V m c main_v1) (V m c main_v2)
    (V m c main_arg5) (V m c main_arg6) (V m c main_v3) (V m c main_v4)
    (V m c main_arg9) (V m c main_arg10) (V m c main_v5) (V m c main_v6)
    (V m c main_arg13) (V m c main_v7)

/-- WHAT THE ONE POINT WRITES BACK is the policy of the arrays at launch, read through the output's block. -/
theorem flushed_eq (c : Dev nD) (t : Fin cfg0.N) :
    (dats m 0 c).flushed 15 t = ((cfg0.win 15).blk t).view.read (Elt Ideal) (atLaunch m c) := by
  rw [Cert.KernelIdeal.Value.flushed15]
  unfold out0_15
  rw [View.canon_unit_zero hz]
  simp only [View.ld_unit_zero (S := S1x64) hz, View.ld_unit_zero (S := S32x64) hz, View.ld_unit_zero (S := S32x8) hz,
    View.ld_unit_zero (S := S1x32) hz, View.ld_unit_zero (S := S8x8) hz, View.ld_unit_zero (S := S1x8) hz]
  rw [blk_0, blk_1, blk_2, blk_3, blk_4, blk_5, blk_6, blk_7, blk_8, blk_9, blk_10, blk_11, blk_12, blk_13, blk_14, body_eq]
  funext y
  show atLaunch m c y = atLaunch m c (((cfg0.win 15).blk t).view.emb y)
  refine congrArg _ (funext fun a => Fin.ext ?_)
  obtain ⟨e0, e1⟩ := idx_15 t
  match a with
  | ⟨0, _⟩ => show (y 0).val = win0_15.index t (0 : Fin 2) * 1 + 1 * (y 0).val; omega
  | ⟨1, _⟩ => show (y 1).val = win0_15.index t (1 : Fin 2) * 8 + 1 * (y 1).val; omega

/-- An index of the result array is in the point's block iff each coordinate is in the block's range. -/
theorem mem_blk (t : Fin cfg0.N) (i : S1x8.Idx) :
    i ∈ ((cfg0.win 15).blk t).view.set ↔ ∀ a : Fin 2, win0_15.index t a * S1x8.size a ≤ (i a).val ∧ (i a).val < win0_15.index t a * S1x8.size a + S1x8.size a := by
  show i ∈ ((View.whole main_v8).slice (win0_15.rect t)).set ↔ _
  rw [View.set_slice_whole, Rect.mem_set_unit]
  exact Iff.rfl

/-- The one point's block is the whole `[1, 8]` result. -/
theorem cover (i : S1x8.Idx) : ∃ t : Fin cfg0.N, (cfg0.win 15).flush t = true ∧ i ∈ ((cfg0.win 15).blk t).view.set := by
  have t : Fin cfg0.N := ⟨0, by decide⟩
  refine ⟨t, flush0_15 t, ?_⟩
  rw [mem_blk]
  obtain ⟨e0, e1⟩ := idx_15 t
  have hi0 : (i 0).val < 1 := (i 0).isLt
  have hi1 : (i 1).val < 8 := (i 1).isLt
  intro a
  match a with
  | ⟨0, _⟩ => show win0_15.index t (0 : Fin 2) * 1 ≤ (i 0).val ∧ (i 0).val < win0_15.index t (0 : Fin 2) * 1 + 1; omega
  | ⟨1, _⟩ => show win0_15.index t (1 : Fin 2) * 8 ≤ (i 1).val ∧ (i 1).val < win0_15.index t (1 : Fin 2) * 8 + 8; omega

/-- THE RESULT ARRAY after the run: the policy of the arrays at launch. -/
theorem final (c : Dev nD) : (dats m 0 c).arrAt 15 cfg0.N = atLaunch m c :=
  (dats m 0 c).arrAt_eq_of_cover 15 (atLaunch m c) (fun t _ => flushed_eq m c t) cover

/-! ## In terms of the arguments -/

/-- The policy of the argument arrays: the observation and each bias reshaped to a row, the weight matrices as
    they are. -/
def policyOf (c : Dev nD) : S1x8.Idx → EReal :=
  policy (shapeCast S1x64 (m ((c : Thread nD τ).loc main_arg0)) shapeCasts_S64_S1x64) (m ((c : Thread nD τ).loc main_arg1)) (m ((c : Thread nD τ).loc main_arg2))
    (shapeCast S1x32 (m ((c : Thread nD τ).loc main_arg3)) shapeCasts_S32_S1x32) (shapeCast S1x32 (m ((c : Thread nD τ).loc main_arg4)) shapeCasts_S32_S1x32)
    (m ((c : Thread nD τ).loc main_arg5)) (m ((c : Thread nD τ).loc main_arg6))
    (shapeCast S1x32 (m ((c : Thread nD τ).loc main_arg7)) shapeCasts_S32_S1x32) (shapeCast S1x32 (m ((c : Thread nD τ).loc main_arg8)) shapeCasts_S32_S1x32)
    (m ((c : Thread nD τ).loc main_arg9)) (m ((c : Thread nD τ).loc main_arg10))
    (shapeCast S1x32 (m ((c : Thread nD τ).loc main_arg11)) shapeCasts_S32_S1x32) (shapeCast S1x32 (m ((c : Thread nD τ).loc main_arg12)) shapeCasts_S32_S1x32)
    (m ((c : Thread nD τ).loc main_arg13)) (shapeCast S1x8 (m ((c : Thread nD τ).loc main_arg14)) shapeCasts_S8_S1x8)

theorem atLaunch_eq (c : Dev nD) : atLaunch m c = policyOf m c := by
  unfold atLaunch policyOf
  rw [row_obs, row_bih0, row_bhh0, row_bih1, row_bhh1, row_bih2, row_bhh2, row_bout,
    V_main_arg1, V_main_arg2, V_main_arg5, V_main_arg6, V_main_arg9, V_main_arg10, V_main_arg13]

/-- The kernel's run, read: the result array ends at the policy of the arguments, the arguments unchanged. -/
theorem run : θ_run defs (onTc (τ := τ) (main (F := Ideal))) ⟨m, fun _ => 0, ρ⟩ fun r => ∀ c : Dev nD,
      r.2.mem ((c : Thread nD τ).loc main_v8) = policyOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans ((final m c).trans (atLaunch_eq m c)), (h c).2⟩)
    (Cert.KernelIdeal.Value.run_blocks m ρ)

end Cert.KernelIdeal.Whole

end
-- ==== Proof.LibHostForms.lean ====
/-
  Host spellings of a kernel's vector operations, on the extended reals.

  A jnp reference lowered for the host and a Pallas body lowered for the TensorCore spell the same
  mathematics with different operations.  Each lemma here says that one host spelling IS the kernel's
  operation, as whole vectors at the ideal instance (every float an extended real, every operation
  exact), for any shapes:

    * a `dot_general` is the matrix product accumulated into the zero vector;
    * `1 / (1 + exp (-x))`, with both ones broadcast from a scalar constant, is the logistic function;
    * the host's hyperbolic tangent is the kernel's;
    * a scalar zero constant broadcast to a shape is the zero splat;
    * a vector `[a]` broadcast along a new leading unit axis is that vector reshaped to `[1, a]`.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibHostForms

open Idealize.ShloMosaic Idealize.ShloMosaic.ValueIdx

/-- The f32 word `0x3F800000` denotes the real number one. -/
theorem ofBits_one_f32 : Ideal.ofBits .f32 0x3F800000#32 = 1 := by
  simp [Ideal.ofBits, Ideal.ieee, -EReal.coe_mul]; norm_num

/-- A host `dot_general` is the kernel's matrix product into the zero accumulator: at every output
    index both are the sum over the contracted index of the products of the operands' entries, the
    zero accumulator adding nothing.  The precision attributes play no part on the extended reals. -/
theorem hostDot_eq_matmul_zero {sl sr so : Shape} {φ₁ φ₂ : FTy} (d : DotDims sl sr so)
    (p q : Option ContractPrecision) (l : FVec Ideal sl φ₁) (r : FVec Ideal sr φ₂) :
    Host.dotGeneral d p l r = matmul d q l r (constant (F := Ideal) so .f32 0x00000000#32) := by
  funext j
  simp only [Host.dotGeneral, matmul]
  rw [Ideal.dotGeneral_apply, Ideal.matmul_constant_zero_apply]

/-- jax's expansion of the logistic function on the host, `1 / (1 + exp (-x))` with each one a scalar
    constant broadcast to the operand's shape, is the kernel's one logistic operation: on the extended
    reals the logistic function is DEFINED as that quotient (with `exp ⊥ = 0`, `exp ⊤ = ⊤`, `1 / ⊤ = 0`),
    so the identity holds at every extended real, infinite ones included. -/
theorem hostLogistic_eq {S0 S : Shape} (dims : Fin S0.rank → Fin S.rank) (hb : S0.BroadcastsInDim S dims)
    (x : FVec Ideal S .f32) :
    Host.divf (broadcastInDim S dims hb (constant (F := Ideal) S0 .f32 0x3F800000#32))
        (addf (broadcastInDim S dims hb (constant (F := Ideal) S0 .f32 0x3F800000#32)) (Host.exp (Host.negf x)))
      = logistic x := by
  funext i
  show Ideal.div (Ideal.ofBits .f32 0x3F800000#32) (Ideal.ofBits .f32 0x3F800000#32 + Ideal.exp (-(x i)))
    = Ideal.logistic (x i)
  rw [ofBits_one_f32]
  rfl

/-- The host's hyperbolic tangent is the kernel's: one function of an extended real. -/
theorem hostTanh_eq {S : Shape} {φ : FTy} (x : FVec Ideal S φ) : Host.tanh x = tanh x := rfl

/-- A scalar zero constant broadcast to a shape is the zero splat of that shape. -/
theorem bcastZero_eq {S0 S : Shape} (dims : Fin S0.rank → Fin S.rank) (hb : S0.BroadcastsInDim S dims) :
    broadcastInDim S dims hb (constant (F := Ideal) S0 .f32 0x00000000#32)
      = broadcast S (Scalar.ofBits (F := Ideal) .f32 0x00000000#32) := rfl

/-- A vector `[a]` broadcast to `[1, a]` along a new leading axis (the output's axis 1 is the
    operand's axis 0) is the vector reshaped to `[1, a]`: both hold, at `(0, i)`, the operand's
    entry `i`. -/
theorem bcastRow_eq_shapeCast {α : Type} {a : ℕ} (x : (⟨1, ![a]⟩ : Shape).Idx → α)
    (hb : (⟨1, ![a]⟩ : Shape).BroadcastsInDim ⟨2, ![1, a]⟩ ![1])
    (hs : (⟨1, ![a]⟩ : Shape).ShapeCasts ⟨2, ![1, a]⟩) :
    broadcastInDim ⟨2, ![1, a]⟩ ![1] hb x = shapeCast ⟨2, ![1, a]⟩ x hs := by
  funext j
  obtain ⟨u, i, rfl⟩ : ∃ (u : Fin 1) (i : Fin a), j = ix2 u i := ⟨j 0, j 1, eq_ix2 j⟩
  rw [shapeCast_a_1a_apply]
  refine broadcastInDim_apply _ hb x _ (ix1 i) (fun b => ?_)
  match b with
  | ⟨0, _⟩ =>
    show i.val = if a = 1 then 0 else i.val
    split
    · next h => have := i.isLt; omega
    · rfl

end Cert.LibHostForms

end
-- ==== Proof.RefValue.lean ====
/-
  The reference computes the LSTM policy of `Spec.lean`.

  The reference's host program is read one operation at a time (the generated stages `val_main_vN`,
  each a function of the arguments it depends on).  Layer by layer its stages are the
  specification's, once each host spelling is read as the kernel operation it denotes on the
  extended reals (`LibHostForms.lean`): every `dot_general` a matrix product into the zero
  accumulator, every `1 / (1 + exp (-x))` the logistic function, the host's `tanh` the kernel's, the
  zero constants broadcast to `[1, 8]` the zero row, and each of `obs`, the six gate biases and the
  output bias, broadcast from `[n]` to `[1, n]`, that vector reshaped to a row.

  Each layer is cut in two: its 32 pre-activations from the layer's input (`gates`), and its new
  hidden state from the pre-activations (`hidden`), which the reference slices four times; cutting there
  keeps every step's term the size of one layer.
-/
import proofs.«142258_j71133248356703_2_alg».proof.Proof.Gen.ReferenceIdeal.Read
import proofs.«142258_j71133248356703_2_alg».proof.Proof.Spec
import proofs.«142258_j71133248356703_2_alg».proof.Proof.LibHostForms

noncomputable section

namespace Cert.ReferenceIdeal.RefValue

open Cert.ReferenceIdeal Cert.ReferenceIdeal.Gen Cert.ReferenceIdeal.Read Idealize.ShloMosaic
open Cert.Lstm Cert.LibHostForms

/-- A vector `[n]` can be reshaped to the row `[1, n]` (for the three lengths that occur). -/
theorem cast64 : S64.ShapeCasts (Row 64) := by decide
theorem cast32 : S32.ShapeCasts (Row 32) := by decide
theorem cast8 : S8.ShapeCasts (Row 8) := by decide

/-! ## Layer 0 -/

/-- The first layer's pre-activations, from the observation and the first layer's parameters. -/
theorem gates0 (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) :
    val_main_v11 (F := Ideal) x0 x1 x2 x3 x4
      = gates (shapeCast (Row 64) x0 cast64) x1 x2 (shapeCast (Row 32) x3 cast32) (shapeCast (Row 32) x4 cast32) (by decide) := by
  simp only [val_main_v11, val_main_v10, val_main_v9, val_main_v8, val_main_v7, val_main_v6, val_main_v5, val_main_v4, val_main_v3, val_main_v1, val_main_v0, val_main_cst]
  rw [hostDot_eq_matmul_zero _ none (some .fp32), hostDot_eq_matmul_zero _ none (some .fp32), bcastZero_eq,
    bcastRow_eq_shapeCast x0 _ cast64, bcastRow_eq_shapeCast x3 _ cast32, bcastRow_eq_shapeCast x4 _ cast32]
  rfl

/-- The first layer's hidden state, from its pre-activations. -/
theorem hidden0 (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) :
    val_main_v39 (F := Ideal) x0 x1 x2 x3 x4 = hidden (val_main_v11 (F := Ideal) x0 x1 x2 x3 x4) := by
  simp only [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v2, val_main_cst_0, val_main_cst_1, val_main_cst_2, val_main_cst_3, val_main_cst_4, val_main_cst_5, val_main_cst_6]
  simp only [hostLogistic_eq, hostTanh_eq, bcastZero_eq]
  rfl

/-! ## Layer 1 -/

theorem gates1 (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) (x5 x6 : (⟨S32x8, .f32⟩ : BufTy).Contents (Elt Ideal)) (x7 x8 : (⟨S32, .f32⟩ : BufTy).Contents (Elt Ideal)) :
    val_main_v48 (F := Ideal) x0 x1 x2 x3 x4 x5 x6 x7 x8
      = gates (val_main_v39 (F := Ideal) x0 x1 x2 x3 x4) x5 x6 (shapeCast (Row 32) x7 cast32) (shapeCast (Row 32) x8 cast32) (by decide) := by
  simp only [val_main_v48, val_main_v47, val_main_v46, val_main_v45, val_main_v44, val_main_v43, val_main_v42, val_main_v41, val_main_v40, val_main_v1, val_main_cst]
  rw [hostDot_eq_matmul_zero _ none (some .fp32), hostDot_eq_matmul_zero _ none (some .fp32), bcastZero_eq,
    bcastRow_eq_shapeCast x7 _ cast32, bcastRow_eq_shapeCast x8 _ cast32]
  rfl

theorem hidden1 (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) (x5 x6 : (⟨S32x8, .f32⟩ : BufTy).Contents (Elt Ideal)) (x7 x8 : (⟨S32, .f32⟩ : BufTy).Contents (Elt Ideal)) :
    val_main_v76 (F := Ideal) x0 x1 x2 x3 x4 x5 x6 x7 x8 = hidden (val_main_v48 (F := Ideal) x0 x1 x2 x3 x4 x5 x6 x7 x8) := by
  simp only [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v2, val_main_cst_0, val_main_cst_7, val_main_cst_8, val_main_cst_9, val_main_cst_10, val_main_cst_11, val_main_cst_12]
  simp only [hostLogistic_eq, hostTanh_eq, bcastZero_eq]
  rfl

/-! ## Layer 2 -/

theorem gates2 (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) (x5 x6 : (⟨S32x8, .f32⟩ : BufTy).Contents (Elt Ideal)) (x7 x8 : (⟨S32, .f32⟩ : BufTy).Contents (Elt Ideal)) (x9 x10 : (⟨S32x8, .f32⟩ : BufTy).Contents (Elt Ideal)) (x11 x12 : (⟨S32, .f32⟩ : BufTy).Contents (Elt Ideal)) :
    val_main_v85 (F := Ideal) x0 x1 x2 x3 x4 x5 x6 x7 x8 x9 x10 x11 x12
      = gates (val_main_v76 (F := Ideal) x0 x1 x2 x3 x4 x5 x6 x7 x8) x9 x10 (shapeCast (Row 32) x11 cast32) (shapeCast (Row 32) x12 cast32) (by decide) := by
  simp only [val_main_v85, val_main_v84, val_main_v83, val_main_v82, val_main_v81, val_main_v80, val_main_v79, val_main_v78, val_main_v77, val_main_v1, val_main_cst]
  rw [hostDot_eq_matmul_zero _ none (some .fp32), hostDot_eq_matmul_zero _ none (some .fp32), bcastZero_eq,
    bcastRow_eq_shapeCast x11 _ cast32, bcastRow_eq_shapeCast x12 _ cast32]
  rfl

theorem hidden2 (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) (x5 x6 : (⟨S32x8, .f32⟩ : BufTy).Contents (Elt Ideal)) (x7 x8 : (⟨S32, .f32⟩ : BufTy).Contents (Elt Ideal)) (x9 x10 : (⟨S32x8, .f32⟩ : BufTy).Contents (Elt Ideal)) (x11 x12 : (⟨S32, .f32⟩ : BufTy).Contents (Elt Ideal)) :
    val_main_v113 (F := Ideal) x0 x1 x2 x3 x4 x5 x6 x7 x8 x9 x10 x11 x12 = hidden (val_main_v85 (F := Ideal) x0 x1 x2 x3 x4 x5 x6 x7 x8 x9 x10 x11 x12) := by
  simp only [val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v2, val_main_cst_0, val_main_cst_13, val_main_cst_14, val_main_cst_15, val_main_cst_16, val_main_cst_17, val_main_cst_18]
  simp only [hostLogistic_eq, hostTanh_eq, bcastZero_eq]
  rfl

/-! ## The output layer, and the whole -/

theorem head_eq (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) (x5 x6 : (⟨S32x8, .f32⟩ : BufTy).Contents (Elt Ideal)) (x7 x8 : (⟨S32, .f32⟩ : BufTy).Contents (Elt Ideal)) (x9 x10 : (⟨S32x8, .f32⟩ : BufTy).Contents (Elt Ideal)) (x11 x12 : (⟨S32, .f32⟩ : BufTy).Contents (Elt Ideal)) (x13 : (⟨S8x8, .f32⟩ : BufTy).Contents (Elt Ideal)) (x14 : (⟨S8, .f32⟩ : BufTy).Contents (Elt Ideal)) :
    val_main_v123 (F := Ideal) x0 x1 x2 x3 x4 x5 x6 x7 x8 x9 x10 x11 x12 x13 x14
      = head (val_main_v113 (F := Ideal) x0 x1 x2 x3 x4 x5 x6 x7 x8 x9 x10 x11 x12) x13 (shapeCast (Row 8) x14 cast8) := by
  simp only [val_main_v123, val_main_v122, val_main_v121, val_main_v120, val_main_v119, val_main_v118, val_main_v117, val_main_v116, val_main_v115, val_main_v114, val_main_cst_19, val_main_cst_20]
  rw [hostDot_eq_matmul_zero _ none (some .fp32), bcastRow_eq_shapeCast x14 _ cast8]
  simp only [hostLogistic_eq]
  rfl

/-- The reference's result is the policy of the observation reshaped to a row, the weight matrices as
    they are, and each bias reshaped to a row. -/
theorem reference_eq (x0 : (⟨S64, .f32⟩ : BufTy).Contents (Elt Ideal)) (x1 : (⟨S32x64, .f32⟩ : BufTy).Contents (Elt Ideal)) (x2 : (⟨S32x8, .f32⟩ : BufTy).Contents (Elt Ideal)) (x3 x4 : (⟨S32, .f32⟩ : BufTy).Contents (Elt Ideal)) (x5 x6 : (⟨S32x8, .f32⟩ : BufTy).Contents (Elt Ideal)) (x7 x8 : (⟨S32, .f32⟩ : BufTy).Contents (Elt Ideal)) (x9 x10 : (⟨S32x8, .f32⟩ : BufTy).Contents (Elt Ideal)) (x11 x12 : (⟨S32, .f32⟩ : BufTy).Contents (Elt Ideal)) (x13 : (⟨S8x8, .f32⟩ : BufTy).Contents (Elt Ideal)) (x14 : (⟨S8, .f32⟩ : BufTy).Contents (Elt Ideal)) :
    val_main_v123 (F := Ideal) x0 x1 x2 x3 x4 x5 x6 x7 x8 x9 x10 x11 x12 x13 x14
      = policy (shapeCast (Row 64) x0 cast64) x1 x2 (shapeCast (Row 32) x3 cast32) (shapeCast (Row 32) x4 cast32)
          x5 x6 (shapeCast (Row 32) x7 cast32) (shapeCast (Row 32) x8 cast32)
          x9 x10 (shapeCast (Row 32) x11 cast32) (shapeCast (Row 32) x12 cast32)
          x13 (shapeCast (Row 8) x14 cast8) := by
  rw [head_eq, hidden2, gates2, hidden1, gates1, hidden0, gates0]
  rfl

end Cert.ReferenceIdeal.RefValue

end
-- ==== Proof.lean ====
/-
  A single step of a three-layer LSTM policy network (hidden width 8, observation width 64) from the zero
  state, followed by an 8×8 linear layer and a logistic: the kernel computes it in one launch with every
  operand as one whole-array block; the reference is the same network written with jnp on the host.

  Why the two agree on the extended reals, at every input (no finiteness is used):

    * both add a layer's four summands in the same order, `((x · W_ihᵀ + b_ih) + 0 · W_hhᵀ) + b_hh`, take the
      same four slices of eight, and form `σ(o) · tanh (σ(f) · 0 + σ(i) · tanh g)` with the same grouping — so
      the comparison is term by term, and no law of arithmetic is needed beyond the meaning of each operation;
    * the kernel's matrix products accumulate into the zero vector, the reference's `dot_general` has no
      accumulator: both are the sum over the contracted index of the products of entries;
    * the kernel applies the logistic function as one operation, the reference spells `1 / (1 + exp (-x))`:
      on the extended reals the logistic function is that quotient, by definition, at ±∞ too;
    * the host reshapes `obs` and the biases from `[n]` to `[1, n]` for the kernel, the reference broadcasts
      them along a new leading axis: both rows hold entry `i` of the vector at `(0, i)`.

  `Proof/Spec.lean` states the network once (`Cert.Lstm.policy`); `Proof/KernelValue.lean` shows the kernel's
  result array ends holding it, `Proof/RefValue.lean` that the reference's result is it, both of the same
  reshaped arguments.  The three frame claims are the generated frame runs (the reference's is its generated
  run with the result dropped); the idealization rewrote no operation, so `preserves` is `True`.
-/
import proofs.«142258_j71133248356703_2_alg».proof.Defs
import proofs.«142258_j71133248356703_2_alg».proof.Proof.Gen.Kernel
import proofs.«142258_j71133248356703_2_alg».proof.Proof.Gen.Kernel.Skeleton
import proofs.«142258_j71133248356703_2_alg».proof.Proof.Gen.Kernel.Launch
import proofs.«142258_j71133248356703_2_alg».proof.Proof.Gen.Kernel.Points
import proofs.«142258_j71133248356703_2_alg».proof.Proof.Gen.Kernel.Frame
import proofs.«142258_j71133248356703_2_alg».proof.Proof.Gen.KernelIdeal
import proofs.«142258_j71133248356703_2_alg».proof.Proof.Gen.KernelIdeal.Skeleton
import proofs.«142258_j71133248356703_2_alg».proof.Proof.Gen.KernelIdeal.Launch
import proofs.«142258_j71133248356703_2_alg».proof.Proof.Gen.KernelIdeal.Points
import proofs.«142258_j71133248356703_2_alg».proof.Proof.Gen.KernelIdeal.Frame
import proofs.«142258_j71133248356703_2_alg».proof.Proof.Gen.ReferenceIdeal
import proofs.«142258_j71133248356703_2_alg».proof.Proof.Gen.Pre_finite_inputs
import proofs.«142258_j71133248356703_2_alg».proof.Proof.Gen.KernelIdeal.Value
import proofs.«142258_j71133248356703_2_alg».proof.Proof.Gen.ReferenceIdeal.Run
import proofs.«142258_j71133248356703_2_alg».proof.Proof.Gen.ReferenceIdeal.Read
import proofs.«142258_j71133248356703_2_alg».proof.Proof.KernelValue
import proofs.«142258_j71133248356703_2_alg».proof.Proof.RefValue
import Idealize.ShloMosaic.Adequacy
import Idealize.ShloMosaic.Init

noncomputable section

namespace Cert.Proof

open Idealize.ShloMosaic Idealize.SL.Sem

/-- The word-level kernel runs and leaves its arguments unchanged: its generated frame run. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the fifteen arguments, the kernel's result array ends at the policy of its
    arguments (`KernelValue.lean`) and the reference's result is the policy of its own (`RefValue.lean`): the same
    array, the arguments being equal. -/
theorem algebraic : Cert.algebraic_KernelIdeal_ReferenceIdeal := by
  intro m ρ m' ρ' _ hagree
  refine ⟨fun c => Cert.KernelIdeal.Whole.policyOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v123_eq, Cert.ReferenceIdeal.RefValue.reference_eq]
  obtain ⟨h0, h1, h2, h3, h4, h5, h6, h7, h8, h9, h10, h11, h12, h13, h14⟩ := hagree c
  rw [h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
